-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S5461x2048 : Shape := ⟨2, ![5461, 2048]⟩
abbrev S2048x5461 : Shape := ⟨2, ![2048, 5461]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S5461x2048 : S_.BroadcastsInDim S5461x2048 (![] : Fin 0 → Fin S5461x2048.rank)
  reducesTo_S5461x2048_S_d0_1 : S5461x2048.ReducesTo [0, 1] S_
  bcast_S_S2048x5461 : S_.BroadcastsInDim S2048x5461 (![] : Fin 0 → Fin S2048x5461.rank)
  reducesTo_S2048x5461_S_d0_1 : S2048x5461.ReducesTo [0, 1] S_

variable [Facts]

def fn_part1 {F : FTy → Type} [FloatOps F] (main_v13 : IVec S_ 1) (main_v16 : IVec S2048x5461 1) : IVec S_ 1 :=
  let main_c_5 : IVec S_ 1 := constantI S_ 1 1#1
  let main_v17 : IVec S_ 1 := (fun x v => Host.reduce IntOp.andi x v reducesTo_S2048x5461_S_d0_1 h_S_) main_v16 main_c_5
  let main_v18 : IVec S_ 1 := andi main_v13 main_v17
  main_v18

def fn {F : FTy → Type} [FloatOps F] (main_arg0 : FVec F S4x4096x2048 .f32) (main_arg1 : FVec F S5461x2048 .f32) (main_arg2 : FVec F S5461x2048 .f32) (main_arg3 : FVec F S2048x5461 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S5461x2048 .f32 := Host.absf main_arg1
  let main_cst_0 : FVec F S_ .f32 := constant S_ .f32 0x7F800000#32
  let main_v5 : FVec F S5461x2048 .f32 := broadcastInDim S5461x2048 ![] bcast_S_S5461x2048 main_cst_0
  let main_v6 : IVec S5461x2048 1 := cmpf .olt main_v4 main_v5
  let main_c_1 : IVec S_ 1 := constantI S_ 1 1#1
  let main_v7 : IVec S_ 1 := (fun x v => Host.reduce IntOp.andi x v reducesTo_S5461x2048_S_d0_1 h_S_) main_v6 main_c_1
  let main_v8 : IVec S_ 1 := andi main_v3 main_v7
  let main_v9 : FVec F S5461x2048 .f32 := Host.absf main_arg2
  let main_cst_2 : FVec F S_ .f32 := constant S_ .f32 0x7F800000#32
  let main_v10 : FVec F S5461x2048 .f32 := broadcastInDim S5461x2048 ![] bcast_S_S5461x2048 main_cst_2
  let main_v11 : IVec S5461x2048 1 := cmpf .olt main_v9 main_v10
  let main_c_3 : IVec S_ 1 := constantI S_ 1 1#1
  let main_v12 : IVec S_ 1 := (fun x v => Host.reduce IntOp.andi x v reducesTo_S5461x2048_S_d0_1 h_S_) main_v11 main_c_3
  let main_v13 : IVec S_ 1 := andi main_v8 main_v12
  let main_v14 : FVec F S2048x5461 .f32 := Host.absf main_arg3
  let main_cst_4 : FVec F S_ .f32 := constant S_ .f32 0x7F800000#32
  let main_v15 : FVec F S2048x5461 .f32 := broadcastInDim S2048x5461 ![] bcast_S_S2048x5461 main_cst_4
  let main_v16 : IVec S2048x5461 1 := cmpf .olt main_v14 main_v15
  fn_part1 (F := F) main_v13 main_v16
-- ==== Kernel.lean ====
abbrev S4x4096x2048 : Shape := ⟨3, ![4, 4096, 2048]⟩
abbrev S5461x2048 : Shape := ⟨2, ![5461, 2048]⟩
abbrev S2048x5461 : Shape := ⟨2, ![2048, 5461]⟩
abbrev S_ : Shape := ⟨0, ![]⟩
abbrev S5632x2048 : Shape := ⟨2, ![5632, 2048]⟩
abbrev S2048x5632 : Shape := ⟨2, ![2048, 5632]⟩
abbrev S16384x2048 : Shape := ⟨2, ![16384, 2048]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩

abbrev nBuf : Space → Nat
  | .hbm => 74
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S5461x2048, .f32⟩
  | .hbm, ⟨2, _⟩ => ⟨S5461x2048, .f32⟩
  | .hbm, ⟨3, _⟩ => ⟨S2048x5461, .f32⟩
  | .hbm, ⟨4, _⟩ => ⟨S5461x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S5461x2048, .f32⟩
  | .hbm, ⟨10, _⟩ => ⟨S5461x2048, .f32⟩
  | .hbm, ⟨11, _⟩ => ⟨S5461x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S5461x2048, .f32⟩
  | .hbm, ⟨16, _⟩ => ⟨S5461x2048, .f32⟩
  | .hbm, ⟨17, _⟩ => ⟨S_, .f32⟩
  | .hbm, ⟨18, _⟩ => ⟨S5461x2048, .f32⟩
  | .hbm, ⟨19, _⟩ => ⟨S5461x2048, .f32⟩
  | .hbm, ⟨20, _⟩ => ⟨S5461x2048, .f32⟩
  | .hbm, ⟨21, _⟩ => ⟨S5461x2048, .f32⟩
  | .hbm, ⟨22, _⟩ => ⟨S5461x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S5461x2048, .f32⟩
  | .hbm, ⟨28, _⟩ => ⟨S5461x2048, .f32⟩
  | .hbm, ⟨29, _⟩ => ⟨S5461x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S5461x2048, .f32⟩
  | .hbm, ⟨34, _⟩ => ⟨S5461x2048, .f32⟩
  | .hbm, ⟨35, _⟩ => ⟨S_, .f32⟩
  | .hbm, ⟨36, _⟩ => ⟨S5461x2048, .f32⟩
  | .hbm, ⟨37, _⟩ => ⟨S5461x2048, .f32⟩
  | .hbm, ⟨38, _⟩ => ⟨S5461x2048, .f32⟩
  | .hbm, ⟨39, _⟩ => ⟨S5461x2048, .f32⟩
  | .hbm, ⟨40, _⟩ => ⟨S2048x5461, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x5461, .f32⟩
  | .hbm, ⟨46, _⟩ => ⟨S2048x5461, .f32⟩
  | .hbm, ⟨47, _⟩ => ⟨S2048x5461, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x5461, .f32⟩
  | .hbm, ⟨52, _⟩ => ⟨S2048x5461, .f32⟩
  | .hbm, ⟨53, _⟩ => ⟨S_, .f32⟩
  | .hbm, ⟨54, _⟩ => ⟨S2048x5461, .f32⟩
  | .hbm, ⟨55, _⟩ => ⟨S2048x5461, .f32⟩
  | .hbm, ⟨56, _⟩ => ⟨S2048x5461, .f32⟩
  | .hbm, ⟨57, _⟩ => ⟨S2048x5461, .f32⟩
  | .hbm, ⟨58, _⟩ => ⟨S_, .i32⟩
  | .hbm, ⟨59, _⟩ => ⟨S_, .f32⟩
  | .hbm, ⟨60, _⟩ => ⟨S5632x2048, .f32⟩
  | .hbm, ⟨61, _⟩ => ⟨S5632x2048, .bf16⟩
  | .hbm, ⟨62, _⟩ => ⟨S_, .i32⟩
  | .hbm, ⟨63, _⟩ => ⟨S_, .f32⟩
  | .hbm, ⟨64, _⟩ => ⟨S5632x2048, .f32⟩
  | .hbm, ⟨65, _⟩ => ⟨S5632x2048, .bf16⟩
  | .hbm, ⟨66, _⟩ => ⟨S_, .i32⟩
  | .hbm, ⟨67, _⟩ => ⟨S_, .f32⟩
  | .hbm, ⟨68, _⟩ => ⟨S2048x5632, .f32⟩
  | .hbm, ⟨69, _⟩ => ⟨S2048x5632, .bf16⟩
  | .hbm, ⟨70, _⟩ => ⟨S16384x2048, .f32⟩
  | .hbm, ⟨71, _⟩ => ⟨S16384x2048, .bf16⟩
  | .hbm, ⟨72, _⟩ => ⟨S16384x2048, .f32⟩
  | .hbm, ⟨73, _⟩ => ⟨S4x4096x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x256, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_cst_8 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_9 : Ref sig .tc := ⟨.hbm, 48, rfl⟩
abbrev main_cst_10 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c : Ref sig .tc := ⟨.hbm, 58, rfl⟩
abbrev main_call6_v0 : Ref sig .tc := ⟨.hbm, 59, rfl⟩
abbrev main_v27 : Ref sig .tc := ⟨.hbm, 60, rfl⟩
abbrev main_v28 : Ref sig .tc := ⟨.hbm, 61, rfl⟩
abbrev main_c_11 : Ref sig .tc := ⟨.hbm, 62, rfl⟩
abbrev main_call7_v0 : Ref sig .tc := ⟨.hbm, 63, rfl⟩
abbrev main_v29 : Ref sig .tc := ⟨.hbm, 64, rfl⟩
abbrev main_v30 : Ref sig .tc := ⟨.hbm, 65, rfl⟩
abbrev main_c_12 : Ref sig .tc := ⟨.hbm, 66, rfl⟩
abbrev main_call8_v0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 22], ![false, false]⟩

def k0_cond2 (i : grid0.Coords) : BitVec 1 :=
  let arg1 : BitVec 32 := BitVec.ofNat 32 (i 1).val
  let c21_i32 : BitVec 32 := 21#32
  let v23 : BitVec 1 := Scalar.cmpi .eq arg1 c21_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S5461x2048_S_d0_1 : S5461x2048.ReducesTo [0, 1] S_
  h_S_ : 0 < S_.numel
  bcast_S_S5461x2048 : S_.BroadcastsInDim S5461x2048 (![] : Fin 0 → Fin S5461x2048.rank)
  reducesTo_S2048x5461_S_d0_1 : S2048x5461.ReducesTo [0, 1] S_
  bcast_S_S2048x5461 : S_.BroadcastsInDim S2048x5461 (![] : Fin 0 → Fin S2048x5461.rank)
  pads_S5461x2048_S5632x2048_01710_000 : S5461x2048.Pads (![0, 0] : Fin 2 → Nat) ![171, 0] ![0, 0] S5632x2048
  bitsLt_bf16_f32 : FTy.bits .bf16 < FTy.bits .f32
  pads_S2048x5461_S2048x5632_000_01710 : S2048x5461.Pads (![0, 0] : Fin 2 → Nat) ![0, 171] ![0, 0] S2048x5632
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S16384x2048_S4x4096x2048 : S16384x2048.ShapeCasts S4x4096x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S5632x2048.size a
  hwx0_1 : ∀ i : grid0.Coords, EltTy.bits .bf16 = 32 ∨ (Rect.block (s := S5632x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S5632x2048.size a
  hwx0_2 : ∀ i : grid0.Coords, EltTy.bits .bf16 = 32 ∨ (Rect.block (s := S5632x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x5632.size a
  hwx0_3 : ∀ i : grid0.Coords, EltTy.bits .bf16 = 32 ∨ (Rect.block (s := S2048x5632) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v34) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S5461x2048 : Shape := ⟨2, ![5461, 2048]⟩
abbrev S2048x5461 : Shape := ⟨2, ![2048, 5461]⟩
abbrev S_ : Shape := ⟨0, ![]⟩
abbrev S4x4096x5461 : Shape := ⟨3, ![4, 4096, 5461]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S5461x2048, .f32⟩
  | .hbm, ⟨2, _⟩ => ⟨S5461x2048, .f32⟩
  | .hbm, ⟨3, _⟩ => ⟨S2048x5461, .f32⟩
  | .hbm, ⟨4, _⟩ => ⟨S5461x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S5461x2048, .f32⟩
  | .hbm, ⟨10, _⟩ => ⟨S5461x2048, .f32⟩
  | .hbm, ⟨11, _⟩ => ⟨S5461x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S5461x2048, .f32⟩
  | .hbm, ⟨16, _⟩ => ⟨S5461x2048, .f32⟩
  | .hbm, ⟨17, _⟩ => ⟨S_, .f32⟩
  | .hbm, ⟨18, _⟩ => ⟨S5461x2048, .f32⟩
  | .hbm, ⟨19, _⟩ => ⟨S5461x2048, .f32⟩
  | .hbm, ⟨20, _⟩ => ⟨S5461x2048, .f32⟩
  | .hbm, ⟨21, _⟩ => ⟨S5461x2048, .f32⟩
  | .hbm, ⟨22, _⟩ => ⟨S5461x2048, .f32⟩
  | .hbm, ⟨23, _⟩ => ⟨S5461x2048, .f32⟩
  | .hbm, ⟨24, _⟩ => ⟨S5461x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S5461x2048, .f32⟩
  | .hbm, ⟨30, _⟩ => ⟨S5461x2048, .f32⟩
  | .hbm, ⟨31, _⟩ => ⟨S5461x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S5461x2048, .f32⟩
  | .hbm, ⟨36, _⟩ => ⟨S5461x2048, .f32⟩
  | .hbm, ⟨37, _⟩ => ⟨S_, .f32⟩
  | .hbm, ⟨38, _⟩ => ⟨S5461x2048, .f32⟩
  | .hbm, ⟨39, _⟩ => ⟨S5461x2048, .f32⟩
  | .hbm, ⟨40, _⟩ => ⟨S5461x2048, .f32⟩
  | .hbm, ⟨41, _⟩ => ⟨S5461x2048, .f32⟩
  | .hbm, ⟨42, _⟩ => ⟨S5461x2048, .f32⟩
  | .hbm, ⟨43, _⟩ => ⟨S5461x2048, .f32⟩
  | .hbm, ⟨44, _⟩ => ⟨S2048x5461, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048x5461, .f32⟩
  | .hbm, ⟨50, _⟩ => ⟨S2048x5461, .f32⟩
  | .hbm, ⟨51, _⟩ => ⟨S2048x5461, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x5461, .f32⟩
  | .hbm, ⟨56, _⟩ => ⟨S2048x5461, .f32⟩
  | .hbm, ⟨57, _⟩ => ⟨S_, .f32⟩
  | .hbm, ⟨58, _⟩ => ⟨S2048x5461, .f32⟩
  | .hbm, ⟨59, _⟩ => ⟨S2048x5461, .f32⟩
  | .hbm, ⟨60, _⟩ => ⟨S2048x5461, .f32⟩
  | .hbm, ⟨61, _⟩ => ⟨S2048x5461, .f32⟩
  | .hbm, ⟨62, _⟩ => ⟨S2048x5461, .f32⟩
  | .hbm, ⟨63, _⟩ => ⟨S2048x5461, .f32⟩
  | .hbm, ⟨64, _⟩ => ⟨S4x4096x5461, .f32⟩
  | .hbm, ⟨65, _⟩ => ⟨S4x4096x5461, .f32⟩
  | .hbm, ⟨66, _⟩ => ⟨S4x4096x5461, .f32⟩
  | .hbm, ⟨67, _⟩ => ⟨S4x4096x5461, .f32⟩
  | .hbm, ⟨68, _⟩ => ⟨S_, .f32⟩
  | .hbm, ⟨69, _⟩ => ⟨S4x4096x5461, .f32⟩
  | .hbm, ⟨70, _⟩ => ⟨S4x4096x5461, .f32⟩
  | .hbm, ⟨71, _⟩ => ⟨S_, .f32⟩
  | .hbm, ⟨72, _⟩ => ⟨S4x4096x5461, .f32⟩
  | .hbm, ⟨73, _⟩ => ⟨S4x4096x5461, .f32⟩
  | .hbm, ⟨74, _⟩ => ⟨S4x4096x5461, .f32⟩
  | .hbm, ⟨75, _⟩ => ⟨S4x4096x5461, .f32⟩
  | .hbm, ⟨76, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_cst_6 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_cst_10 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call6_v0 : Ref sig .tc := ⟨.hbm, 66, rfl⟩
abbrev main_call6_v1 : Ref sig .tc := ⟨.hbm, 67, rfl⟩
abbrev main_call6_cst : Ref sig .tc := ⟨.hbm, 68, rfl⟩
abbrev main_call6_v2 : Ref sig .tc := ⟨.hbm, 69, rfl⟩
abbrev main_call6_v3 : Ref sig .tc := ⟨.hbm, 70, rfl⟩
abbrev main_call6_cst_0 : Ref sig .tc := ⟨.hbm, 71, rfl⟩
abbrev main_call6_v4 : Ref sig .tc := ⟨.hbm, 72, rfl⟩
abbrev main_call6_v5 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩

abbrev nD : Nat := 1
abbrev τ : Topo := Topo.v7x

variable {F : FTy → Type} [FloatOps F]

class Facts₀ : Prop where
  reducesTo_S5461x2048_S_d0_1 : S5461x2048.ReducesTo [0, 1] S_
  h_S_ : 0 < S_.numel
  bcast_S_S5461x2048 : S_.BroadcastsInDim S5461x2048 (![] : Fin 0 → Fin S5461x2048.rank)
  reducesTo_S2048x5461_S_d0_1 : S2048x5461.ReducesTo [0, 1] S_
  bcast_S_S2048x5461 : S_.BroadcastsInDim S2048x5461 (![] : Fin 0 → Fin S2048x5461.rank)
  bcast_S_S4x4096x5461 : S_.BroadcastsInDim S4x4096x5461 (![] : Fin 0 → Fin S4x4096x5461.rank)
  dot_S4x4096x2048_S5461x2048_S4x4096x5461_2_1_01_0_n_n_wf : DotDims.WF S4x4096x2048 S5461x2048 S4x4096x5461 [2] [1] [0, 1] [0] [] []
  dot_S4x4096x5461_S2048x5461_S4x4096x2048_2_1_01_0_n_n_wf : DotDims.WF S4x4096x5461 S2048x5461 S4x4096x2048 [2] [1] [0, 1] [0] [] []

variable [Facts₀]

def dot_S4x4096x2048_S5461x2048_S4x4096x5461_2_1_01_0_n_n : DotDims S4x4096x2048 S5461x2048 S4x4096x5461 where
  lhsContracting := [2]
  rhsContracting := [1]
  lhsNonContracting := [0, 1]
  rhsNonContracting := [0]
  lhsBatch := []
  rhsBatch := []
  wf := dot_S4x4096x2048_S5461x2048_S4x4096x5461_2_1_01_0_n_n_wf
def dot_S4x4096x5461_S2048x5461_S4x4096x2048_2_1_01_0_n_n : DotDims S4x4096x5461 S2048x5461 S4x4096x2048 where
  lhsContracting := [2]
  rhsContracting := [1]
  lhsNonContracting := [0, 1]
  rhsNonContracting := [0]
  lhsBatch := []
  rhsBatch := []
  wf := dot_S4x4096x5461_S2048x5461_S4x4096x2048_2_1_01_0_n_n_wf

class Facts : Prop extends Facts₀ where

variable [Facts]
-- ==== Proof.Finite.lean ====
/-
  What the precondition says about the weight matrices.

  The precondition is the conjunction, over the four arguments, of "every entry `x` has `|x| < +∞`".  An extended
  real whose absolute value `max x (−x)` is below `+∞` is neither infinity: it is a real number.  Read back for the
  three weight matrices.
-/
import proofs.«174186_j66640712564850_1_alg».proof.Pre_finite_inputs
import proofs.«174186_j66640712564850_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic

instance : Subsingleton S_.Idx := ⟨fun a b => funext fun d => d.elim0⟩

/-- An extended real whose absolute value compares below the word of `+∞` is a real number. -/
theorem real_of_abs_lt (x : EReal) (h : Ideal.cmp .olt (max x (-x)) (Ideal.ofBits .f32 0x7F800000#32) = 1#1) :
    x ≠ ⊥ ∧ x ≠ ⊤ := by
  have ht : Ideal.ofBits .f32 0x7F800000#32 = ⊤ := by simp [Ideal.ofBits, Ideal.ieee]
  rw [ht] at h
  have hlt : max x (-x) < ⊤ := by
    by_contra hn
    simp [Ideal.cmp, hn] at h
  constructor
  · rintro rfl; simp at hlt
  · rintro rfl; simp at hlt

/-- Under the precondition every entry of each weight matrix is a real number. -/
theorem weights_real (a0 : FVec Ideal S4x4096x2048 .f32) (a1 a2 : FVec Ideal S5461x2048 .f32) (a3 : FVec Ideal S2048x5461 .f32)
    (h : fn (F := Ideal) a0 a1 a2 a3 = fun _ => 1#1) :
    (∀ i, a1 i ≠ ⊥ ∧ a1 i ≠ ⊤) ∧ (∀ i, a2 i ≠ ⊥ ∧ a2 i ≠ ⊤) ∧ (∀ i, a3 i ≠ ⊥ ∧ a3 i ≠ ⊤) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨-, h1⟩ := IntOp.andi_eq_one.1 h01
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Pre_finite_inputs.Decode

end
-- ==== Proof.MlpSpec.lean ====
/-
  The mathematics of the gated feed-forward block, independent of either program.

  With `X` the 16384 × 2048 matrix of input rows and `W1`, `W3` (5632 × 2048), `W2` (2048 × 5632) the three weight
  matrices over the padded hidden axis, hidden unit `h` of row `r` has pre-activations `a = ∑ₖ X r k · W1 h k` and
  `b = ∑ₖ X r k · W3 h k`, hidden activation `(a · σ(a)) · b` with `σ` the logistic function, and contributes
  `activation · W2 d h` to output entry `(r, d)`.  The output is the sum of the contributions over the hidden axis.

  Three facts about that sum are proved here, over the extended reals, where addition is commutative and associative
  and a product with zero is zero:
  * the sum over the first `(b+1)·256` hidden units is the sum over the first `b·256` plus the sum over block `b`;
  * when the hidden units from 5461 on contribute zero, the sum over all 5632 is the sum over the first 5461;
  * for a real number `w` and any extended real `q`, `w + (q − w) = q`.
-/
import Idealize.ShloMosaic.Lib.ValueIdx
import Idealize.ShloMosaic.PureOps.Ideal.Laws

noncomputable section

open scoped BigOperators

namespace Cert.Mlp

open Idealize.ShloMosaic Idealize.ShloMosaic.ValueIdx

/-- A matrix of extended reals with `a` rows and `b` columns. -/
abbrev Mat (a b : Nat) := (⟨2, ![a, b]⟩ : Shape).Idx → EReal

/-- Hidden unit number `h`, as an index of the padded hidden axis (numbers from 5632 on wrap around; they are never used). -/
def hid (h : Nat) : Fin 5632 := ⟨h % 5632, Nat.mod_lt _ (by norm_num)⟩

theorem hid_of_lt (h : Nat) (hh : h < 5632) : hid h = ⟨h, hh⟩ := Fin.ext (Nat.mod_eq_of_lt hh)

/-- The hidden activation of unit `h` for row `r`: `(a · σ(a)) · b` of the two pre-activations. -/
def hiddenAct (X : Mat 16384 2048) (W1 W3 : Mat 5632 2048) (r : Fin 16384) (h : Fin 5632) : EReal :=
  ((∑ k : Fin 2048, X (ix2 r k) * W1 (ix2 h k)) * Ideal.logistic (∑ k : Fin 2048, X (ix2 r k) * W1 (ix2 h k)))
    * (∑ k : Fin 2048, X (ix2 r k) * W3 (ix2 h k))

/-- What hidden unit number `h` contributes to output entry `(r, d)`. -/
def term (X : Mat 16384 2048) (W1 W3 : Mat 5632 2048) (W2 : Mat 2048 5632) (r : Fin 16384) (d : Fin 2048) (h : Nat) : EReal :=
  hiddenAct X W1 W3 r (hid h) * W2 (ix2 d (hid h))

/-- The output over the padded hidden axis. -/
def out (X : Mat 16384 2048) (W1 W3 : Mat 5632 2048) (W2 : Mat 2048 5632) : Mat 16384 2048 :=
  fun j => ∑ h ∈ Finset.range 5632, term X W1 W3 W2 (j 0) (j 1) h

/-- Row `r` of row block `i` (blocks of 512 rows). -/
def rowOf (i : Fin 32) (r : Fin 512) : Fin 16384 := ⟨i.val * 512 + r.val, by have := i.isLt; have := r.isLt; omega⟩

/-- Hidden unit `j` of hidden block `b` (blocks of 256 units). -/
def colOf (b : Fin 22) (j : Fin 256) : Fin 5632 := ⟨b.val * 256 + j.val, by have := b.isLt; have := j.isLt; omega⟩

theorem hid_colOf (b : Fin 22) (j : Fin 256) : hid (b.val * 256 + j.val) = colOf b j :=
  hid_of_lt _ (by have := b.isLt; have := j.isLt; omega)

/-- The partial sum over the first `(b+1)·256` hidden units: the first `b·256`, then block `b`. -/
theorem sum_range_block (F : Nat → EReal) (b : Nat) :
    ∑ h ∈ Finset.range ((b + 1) * 256), F h
      = ∑ h ∈ Finset.range (b * 256), F h + ∑ j : Fin 256, F (b * 256 + j.val) := by
  rw [show (b + 1) * 256 = b * 256 + 256 by ring, Finset.sum_range_add, Finset.sum_range (fun j => F (b * 256 + j))]

/-- Hidden units that contribute zero from 5461 on may be left out. -/
theorem sum_range_pad (F : Nat → EReal) (hz : ∀ j, j < 171 → F (5461 + j) = 0) :
    ∑ h ∈ Finset.range 5632, F h = ∑ k : Fin 5461, F k.val := by
  rw [show 5632 = 5461 + 171 by norm_num, Finset.sum_range_add, Finset.sum_range F,
    Finset.sum_eq_zero (fun j hj => hz j (Finset.mem_range.mp hj)), add_zero]

/-- For a real number `w` and any extended real `q`: `w + (q − w) = q`. -/
theorem add_sub_cancel_real (w q : EReal) (hb : w ≠ ⊥) (ht : w ≠ ⊤) : w + (q - w) = q := by
  lift w to ℝ using ⟨ht, hb⟩
  induction q using EReal.rec with
  | bot => simp
  | top => simp
  | coe q => norm_cast; ring

/-- One grid step of the block-wise computation: from a row block of `X` and hidden block `b` of the three weight
    matrices, the block product adds exactly the contributions of the hidden units of block `b`. -/
theorem block_step (X : Mat 16384 2048) (W1 W3 : Mat 5632 2048) (W2 : Mat 2048 5632) (i : Fin 32) (b : Fin 22)
    (x0 : Mat 512 2048) (x1 x2 : Mat 256 2048) (x3 : Mat 2048 256)
    (h0 : ∀ r k, x0 (ix2 r k) = X (ix2 (rowOf i r) k))
    (h1 : ∀ j k, x1 (ix2 j k) = W1 (ix2 (colOf b j) k))
    (h2 : ∀ j k, x2 (ix2 j k) = W3 (ix2 (colOf b j) k))
    (h3 : ∀ d j, x3 (ix2 d j) = W2 (ix2 d (colOf b j)))
    (r : Fin 512) (d : Fin 2048) :
    ∑ j : Fin 256, (((∑ k : Fin 2048, x0 (ix2 r k) * x1 (ix2 j k)) * Ideal.logistic (∑ k : Fin 2048, x0 (ix2 r k) * x1 (ix2 j k)))
        * (∑ k : Fin 2048, x0 (ix2 r k) * x2 (ix2 j k))) * x3 (ix2 d j)
      = ∑ j : Fin 256, term X W1 W3 W2 (rowOf i r) d (b.val * 256 + j.val) := by
  refine Finset.sum_congr rfl fun j _ => ?_
  unfold term hiddenAct
  rw [hid_colOf]
  simp only [h0, h1, h2, h3]

/-- A hidden unit whose rows of `W1` and `W3` are zero and whose column of `W2` is zero contributes zero. -/
theorem term_pad (X : Mat 16384 2048) (W1 W3 : Mat 5632 2048) (W2 : Mat 2048 5632) (r : Fin 16384) (d : Fin 2048) (h : Nat)
    (hW2 : W2 (ix2 d (hid h)) = 0) : term X W1 W3 W2 r d h = 0 := by
  unfold term
  rw [hW2, mul_zero]

end Cert.Mlp

end
-- ==== Proof.Blocks.lean ====
/-
  The blocks the kernel's windows read, as entries of the four operand arrays.

  The grid has 32 × 22 points; point `t` is row block `t / 22` and hidden block `t mod 22`.  At point `t` the kernel
  reads rows `(t / 22)·512 …` of the input rows, rows `(t mod 22)·256 …` of the first two weight matrices, and
  columns `(t mod 22)·256 …` of the third, and its output block is rows `(t / 22)·512 …` of the result.
-/
import proofs.«174186_j66640712564850_1_alg».proof.Proof.Gen.KernelIdeal.Frame
import proofs.«174186_j66640712564850_1_alg».proof.Proof.MlpSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The input rows as the kernel finds them. -/
def X (c : Dev nD) : Cert.Mlp.Mat 16384 2048 := V m c main_v34
/-- The three weight matrices over the padded hidden axis as the kernel finds them. -/
def W1 (c : Dev nD) : Cert.Mlp.Mat 5632 2048 := V m c main_v28
def W3 (c : Dev nD) : Cert.Mlp.Mat 5632 2048 := V m c main_v30
def W2 (c : Dev nD) : Cert.Mlp.Mat 2048 5632 := V m c main_v32

theorem N_eq : cfg0.N = 704 := N_0

/-- The row block of grid point `t`. -/
def rowBlk (t : Fin cfg0.N) : Fin 32 := ⟨t.val / 22, by have h : t.val < 704 := lt_of_lt_of_eq t.isLt N_eq; omega⟩
/-- The hidden block of grid point `t`. -/
def hidBlk (t : Fin cfg0.N) : Fin 22 := ⟨t.val % 22, Nat.mod_lt _ (by norm_num)⟩

/-- The windows' block indices at every grid point, decided over the grid. -/
theorem idx_facts : ∀ t : Fin cfg0.N,
    win0_0.index t (0 : Fin 2) = t.val / 22 ∧ win0_0.index t (1 : Fin 2) = 0
    ∧ win0_1.index t (0 : Fin 2) = t.val % 22 ∧ win0_1.index t (1 : Fin 2) = 0
    ∧ win0_2.index t (0 : Fin 2) = t.val % 22 ∧ win0_2.index t (1 : Fin 2) = 0
    ∧ win0_3.index t (0 : Fin 2) = 0 ∧ win0_3.index t (1 : Fin 2) = t.val % 22
    ∧ win0_4.index t (0 : Fin 2) = t.val / 22 ∧ win0_4.index t (1 : Fin 2) = 0 :=
  (by decide +kernel : ∀ t : Fin grid0.N, _)

/-- The block of input rows at point `t`. -/
theorem iblk0 (c : Dev nD) (t : Fin cfg0.N) (r : Fin 512) (k : Fin 2048) :
    (iblk m c 0 t : Cert.Mlp.Mat 512 2048) (ix2 r k) = X m c (ix2 (Cert.Mlp.rowOf (rowBlk t) r) k) := by
  unfold iblk X
  rw [View.read_apply]
  show V m c main_v34 _ = V m c main_v34 _
  refine congrArg (V m c main_v34) (funext fun a => Fin.ext ?_)
  obtain ⟨e0, e1, -⟩ := idx_facts t
  match a with
  | ⟨0, _⟩ => show win0_0.index t (0 : Fin 2) * 512 + 1 * r.val = t.val / 22 * 512 + r.val; rw [e0]; omega
  | ⟨1, _⟩ => show win0_0.index t (1 : Fin 2) * 2048 + 1 * k.val = k.val; rw [e1]; omega

/-- The block of the first weight matrix at point `t`. -/
theorem iblk1 (c : Dev nD) (t : Fin cfg0.N) (j : Fin 256) (k : Fin 2048) :
    (iblk m c 1 t : Cert.Mlp.Mat 256 2048) (ix2 j k) = W1 m c (ix2 (Cert.Mlp.colOf (hidBlk t) j) k) := by
  unfold iblk W1
  rw [View.read_apply]
  show V m c main_v28 _ = V m c main_v28 _
  refine congrArg (V m c main_v28) (funext fun a => Fin.ext ?_)
  obtain ⟨-, -, e0, e1, -⟩ := idx_facts t
  match a with
  | ⟨0, _⟩ => show win0_1.index t (0 : Fin 2) * 256 + 1 * j.val = t.val % 22 * 256 + j.val; rw [e0]; omega
  | ⟨1, _⟩ => show win0_1.index t (1 : Fin 2) * 2048 + 1 * k.val = k.val; rw [e1]; omega

/-- The block of the second weight matrix at point `t`. -/
theorem iblk2 (c : Dev nD) (t : Fin cfg0.N) (j : Fin 256) (k : Fin 2048) :
    (iblk m c 2 t : Cert.Mlp.Mat 256 2048) (ix2 j k) = W3 m c (ix2 (Cert.Mlp.colOf (hidBlk t) j) k) := by
  unfold iblk W3
  rw [View.read_apply]
  show V m c main_v30 _ = V m c main_v30 _
  refine congrArg (V m c main_v30) (funext fun a => Fin.ext ?_)
  obtain ⟨-, -, -, -, e0, e1, -⟩ := idx_facts t
  match a with
  | ⟨0, _⟩ => show win0_2.index t (0 : Fin 2) * 256 + 1 * j.val = t.val % 22 * 256 + j.val; rw [e0]; omega
  | ⟨1, _⟩ => show win0_2.index t (1 : Fin 2) * 2048 + 1 * k.val = k.val; rw [e1]; omega

/-- The block of the third weight matrix at point `t`. -/
theorem iblk3 (c : Dev nD) (t : Fin cfg0.N) (d : Fin 2048) (j : Fin 256) :
    (iblk m c 3 t : Cert.Mlp.Mat 2048 256) (ix2 d j) = W2 m c (ix2 d (Cert.Mlp.colOf (hidBlk t) j)) := by
  unfold iblk W2
  rw [View.read_apply]
  show V m c main_v32 _ = V m c main_v32 _
  refine congrArg (V m c main_v32) (funext fun a => Fin.ext ?_)
  obtain ⟨-, -, -, -, -, -, e0, e1, -⟩ := idx_facts t
  match a with
  | ⟨0, _⟩ => show win0_3.index t (0 : Fin 2) * 2048 + 1 * d.val = d.val; rw [e0]; omega
  | ⟨1, _⟩ => show win0_3.index t (1 : Fin 2) * 256 + 1 * j.val = t.val % 22 * 256 + j.val; rw [e1]; omega

end Cert.KernelIdeal.Blocks

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.KernelBody.lean ====
/-
  One grid step of the kernel, read at an index over the extended reals.

  The body's one store writes, at entry `(r, d)` of the 512 × 2048 accumulator, the accumulator's previous entry plus
  the block product: the sum over the 256 hidden units `j` of the block of `((a · σ(a)) · b) · w2 d j`, where
  `a = ∑ₖ x r k · w1 j k` and `b = ∑ₖ x r k · w3 j k` are the two pre-activations of unit `j` for row `r`
  (each matrix product contracts the second axis of both operands and starts from a zero accumulator, so it is a
  plain sum; the change of number format before the last product is the identity on extended reals).  The reset
  stores zero everywhere.
-/
import proofs.«174186_j66640712564850_1_alg».proof.Proof.Gen.KernelIdeal.Skeleton
import proofs.«174186_j66640712564850_1_alg».proof.Proof.LibDotNT
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! The coordinates of the operand indices of the two products: rows from the output index, the contracted
    coordinate second in both operands. -/

theorem d1_l0 (j : S512x256.Idx) (q : dot_S512x2048_S256x2048_S512x256_1_1_0_0_n_n.contr.Idx) :
    (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl
theorem d1_l1 (j : S512x256.Idx) (q : dot_S512x2048_S256x2048_S512x256_1_1_0_0_n_n.contr.Idx) :
    (dot_S512x2048_S256x2048_S512x256_1_1_0_0_n_n.lhsIdx j q 1).val = (q ⟨0, by decide⟩).val :=
  dot_S512x2048_S256x2048_S512x256_1_1_0_0_n_n.lhsIdx_val_of_single rfl j q
theorem d1_r0 (j : S512x256.Idx) (q : dot_S512x2048_S256x2048_S512x256_1_1_0_0_n_n.contr.Idx) :
    (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl
theorem d1_r1 (j : S512x256.Idx) (q : dot_S512x2048_S256x2048_S512x256_1_1_0_0_n_n.contr.Idx) :
    (dot_S512x2048_S256x2048_S512x256_1_1_0_0_n_n.rhsIdx j q 1).val = (q ⟨0, by decide⟩).val :=
  dot_S512x2048_S256x2048_S512x256_1_1_0_0_n_n.rhsIdx_val_of_single rfl j q

theorem d2_l0 (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
theorem d2_l1 (j : S512x2048.Idx) (q : dot_S512x256_S2048x256_S512x2048_1_1_0_0_n_n.contr.Idx) :
    (dot_S512x256_S2048x256_S512x2048_1_1_0_0_n_n.lhsIdx j q 1).val = (q ⟨0, by decide⟩).val :=
  dot_S512x256_S2048x256_S512x2048_1_1_0_0_n_n.lhsIdx_val_of_single rfl j q
theorem d2_r0 (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl
theorem d2_r1 (j : S512x2048.Idx) (q : dot_S512x256_S2048x256_S512x2048_1_1_0_0_n_n.contr.Idx) :
    (dot_S512x256_S2048x256_S512x2048_1_1_0_0_n_n.rhsIdx j q 1).val = (q ⟨0, by decide⟩).val :=
  dot_S512x256_S2048x256_S512x2048_1_1_0_0_n_n.rhsIdx_val_of_single rfl j q

/-- A pre-activation: entry `(r, j)` of the first or second product is `∑ₖ x r k · w j k`. -/
theorem pre_apply (x : FVec Ideal S512x2048 .bf16) (w : FVec Ideal S256x2048 .bf16) (r : Fin 512) (j : Fin 256) :
    FloatOps.matmul (φ₁ := .bf16) (φ₂ := .bf16) dot_S512x2048_S256x2048_S512x256_1_1_0_0_n_n none x w (constant S512x256 .f32 0x00000000#32) (ix2 r j)
      = ∑ k : Fin 2048, x (ix2 r k) * w (ix2 j k) :=
  Cert.Lib.DotNT.matmul_zero_apply dot_S512x2048_S256x2048_S512x256_1_1_0_0_n_n rfl rfl d1_l0 d1_l1 d1_r0 d1_r1 none x w (ix2 r j)

/-- The last product: entry `(r, d)` is `∑ⱼ g r j · w2 d j`. -/
theorem post_apply (g : FVec Ideal S512x256 .bf16) (w : FVec Ideal S2048x256 .bf16) (r : Fin 512) (d : Fin 2048) :
    FloatOps.matmul (φ₁ := .bf16) (φ₂ := .bf16) dot_S512x256_S2048x256_S512x2048_1_1_0_0_n_n none g w (constant S512x2048 .f32 0x00000000#32) (ix2 r d)
      = ∑ j : Fin 256, g (ix2 r j) * w (ix2 d j) :=
  Cert.Lib.DotNT.matmul_zero_apply dot_S512x256_S2048x256_S512x2048_1_1_0_0_n_n rfl rfl d2_l0 d2_l1 d2_r0 d2_r1 none g w (ix2 r d)

/-- The reset stores zero. -/
theorem pay1_apply (i : S512x2048.Idx) : k0_pay1 (F := Ideal) i = 0 := by
  unfold k0_pay1
  simp only [shapeCast_self]
  exact Ideal.ofBits_zero_f32

/-- The accumulating store at entry `(r, d)`: the previous entry plus the block product. -/
theorem pay2_apply (x0 : Vec Ideal S512x2048 .bf16) (x1 x2 : Vec Ideal S256x2048 .bf16) (x3 : Vec Ideal S2048x256 .bf16)
    (acc : Vec Ideal S512x2048 .f32) (r : Fin 512) (d : Fin 2048) :
    k0_pay2 (F := Ideal) x0 x1 x2 x3 acc (ix2 r d)
      = acc (ix2 r d) + ∑ j : Fin 256,
          (((∑ k : Fin 2048, x0 (ix2 r k) * x1 (ix2 j k)) * Ideal.logistic (∑ k : Fin 2048, x0 (ix2 r k) * x1 (ix2 j k)))
            * (∑ k : Fin 2048, x0 (ix2 r k) * x2 (ix2 j k))) * x3 (ix2 d j) := by
  unfold k0_pay2
  simp only [shapeCast_self]
  refine congrArg (acc (ix2 r d) + ·) ?_
  refine (post_apply _ x3 r d).trans (Finset.sum_congr rfl fun j _ => ?_)
  refine congrArg (· * x3 (ix2 d j)) ?_
  exact congrArg₂ (fun a b : EReal => (a * Ideal.logistic a) * b) (pre_apply x0 x1 r j) (pre_apply x0 x2 r j)

end Cert.KernelIdeal.Body

end
-- ==== Proof.Pieces.lean ====
/-
  What each control case of the kernel body leaves behind, as a value.

  The body has three cases along the hidden-block axis: the first block (the accumulator is reset to zero, then the
  block product is added), a middle block (the block product is added to what the previous step left), and the last
  block (the same, and the accumulator is copied to the output block).  In every case the accumulator ends at the
  accumulating store's value of the step's four input blocks and the accumulator it started from — the zero block in
  the first case — and in the last case the output block ends at that same value.
-/
import proofs.«174186_j66640712564850_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A middle block: the accumulator ends at the accumulating store's value over what it held before. -/
theorem scr_B (c : Dev nD) (i : grid0.Coords) (a2 : Memref sig .tc .vmem S512x2048 .bf16) (h2 : a2.IsWhole) (a3 : Memref sig .tc .vmem S256x2048 .bf16) (h3 : a3.IsWhole) (a4 : Memref sig .tc .vmem S256x2048 .bf16) (h4 : a4.IsWhole) (a5 : Memref sig .tc .vmem S2048x256 .bf16) (h5 : a5.IsWhole) (a6 : Memref sig .tc .vmem S512x2048 .f32) (h6 : a6.IsWhole) (a7 : Memref sig .tc .vmem S512x2048 .f32) (h7 : a7.IsWhole) (hc0 : ¬cond0_0 i) (hc1 : ¬cond0_1 i)
    (x0 : Vec F S512x2048 .bf16) (x1 : Vec F S256x2048 .bf16) (x2 : Vec F S256x2048 .bf16) (x3 : Vec F S2048x256 .bf16) (xs0 : Vec F S512x2048 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h7.read_unread, View.ld_unit_zero (S := S512x2048) hz, View.ld_unit_zero (S := S256x2048) hz, View.ld_unit_zero (S := S2048x256) hz]

/-- The first block: the accumulator is reset, read back, and ends at the accumulating store's value over the zero block. -/
theorem scr_A (c : Dev nD) (i : grid0.Coords) (a2 : Memref sig .tc .vmem S512x2048 .bf16) (h2 : a2.IsWhole) (a3 : Memref sig .tc .vmem S256x2048 .bf16) (h3 : a3.IsWhole) (a4 : Memref sig .tc .vmem S256x2048 .bf16) (h4 : a4.IsWhole) (a5 : Memref sig .tc .vmem S2048x256 .bf16) (h5 : a5.IsWhole) (a6 : Memref sig .tc .vmem S512x2048 .f32) (h6 : a6.IsWhole) (a7 : Memref sig .tc .vmem S512x2048 .f32) (h7 : a7.IsWhole) (hc0 : cond0_0 i) (hc1 : ¬cond0_1 i)
    (x0 : Vec F S512x2048 .bf16) (x1 : Vec F S256x2048 .bf16) (x2 : Vec F S256x2048 .bf16) (x3 : Vec F S2048x256 .bf16) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, h5.read_unread, h7.read_unread, View.ld_unit_zero (S := S512x2048) hz, View.ld_unit_zero (S := S256x2048) hz, View.ld_unit_zero (S := S2048x256) hz]

/-- The last block: the accumulator ends as in a middle block, -/
theorem scr_C (c : Dev nD) (i : grid0.Coords) (a2 : Memref sig .tc .vmem S512x2048 .bf16) (h2 : a2.IsWhole) (a3 : Memref sig .tc .vmem S256x2048 .bf16) (h3 : a3.IsWhole) (a4 : Memref sig .tc .vmem S256x2048 .bf16) (h4 : a4.IsWhole) (a5 : Memref sig .tc .vmem S2048x256 .bf16) (h5 : a5.IsWhole) (a6 : Memref sig .tc .vmem S512x2048 .f32) (h6 : a6.IsWhole) (a7 : Memref sig .tc .vmem S512x2048 .f32) (h7 : a7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread, View.ld_unit_zero (S := S512x2048) hz, View.ld_unit_zero (S := S256x2048) hz, View.ld_unit_zero (S := S2048x256) hz]

/-- and the output block is a copy of it. -/
theorem out_C (c : Dev nD) (i : grid0.Coords) (a2 : Memref sig .tc .vmem S512x2048 .bf16) (h2 : a2.IsWhole) (a3 : Memref sig .tc .vmem S256x2048 .bf16) (h3 : a3.IsWhole) (a4 : Memref sig .tc .vmem S256x2048 .bf16) (h4 : a4.IsWhole) (a5 : Memref sig .tc .vmem S2048x256 .bf16) (h5 : a5.IsWhole) (a6 : Memref sig .tc .vmem S512x2048 .f32) (h6 : a6.IsWhole) (a7 : Memref sig .tc .vmem S512x2048 .f32) (h7 : a7.IsWhole) (hc0 : ¬cond0_0 i) (hc1 : cond0_1 i)
    (x0 : Vec F S512x2048 .bf16) (x1 : Vec F S256x2048 .bf16) (x2 : Vec F S256x2048 .bf16) (x3 : Vec F S2048x256 .bf16) (xs0 : Vec F S512x2048 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S512x2048) _ hz]
  (try rw [View.canon_unit_zero hz])
  simp only [View.readAt_eq_ld, h2.read_unread, h3.read_unread, h4.read_unread, h5.read_unread, h7.read_unread, View.ld_unit_zero (S := S512x2048) hz, View.ld_unit_zero (S := S256x2048) hz, View.ld_unit_zero (S := S2048x256) hz]

end Cert.KernelIdeal.Pieces

end
-- ==== Proof.Steps.lean ====
/-
  The accumulator across the grid.

  Along the hidden-block axis the kernel keeps, for its current row block, a running sum in an accumulator: reset at
  hidden block 0, increased by one block product per grid point.  After grid point `t` the accumulator's entry
  `(r, d)` is therefore the sum of the contributions of the first `(t mod 22 + 1)·256` hidden units to output entry
  `((t / 22)·512 + r, d)` — by induction on the grid point, the three control cases giving the base and the step.
-/
import proofs.«174186_j66640712564850_1_alg».proof.Proof.Gen.KernelIdeal.Frame
import proofs.«174186_j66640712564850_1_alg».proof.Proof.MlpSpec
import proofs.«174186_j66640712564850_1_alg».proof.Proof.KernelBody
import proofs.«174186_j66640712564850_1_alg».proof.Proof.Pieces
import proofs.«174186_j66640712564850_1_alg».proof.Proof.Blocks

noncomputable section

open scoped BigOperators

namespace Cert.KernelIdeal.Steps

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- What the accumulator holds after a point where hidden block 0 is processed. -/
theorem snd_A (c : Dev nD) (t : Fin cfg0.N) (h0 : t.val % 22 = 0) (h1 : ¬t.val % 22 = 21) :
    (outsAt0 m c t.val t.isLt).2 = k0_pay2 (iblk m c 0 t) (iblk m c 1 t) (iblk m c 2 t) (iblk m c 3 t) (k0_pay1 (F := Ideal)) := by
  rw [outsAt0_A m c t h0 h1]
  dsimp only
  exact Pieces.scr_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a point of a middle hidden block: one more block product over what the point before left. -/
theorem snd_B (c : Dev nD) (t : Fin cfg0.N) (h0 : ¬t.val % 22 = 0) (h1 : ¬t.val % 22 = 21) :
    (outsAt0 m c t.val t.isLt).2
      = k0_pay2 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact Pieces.scr_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a point of the last hidden block: the same, -/
theorem snd_C (c : Dev nD) (t : Fin cfg0.N) (h0 : ¬t.val % 22 = 0) (h1 : t.val % 22 = 21) :
    (outsAt0 m c t.val t.isLt).2
      = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact Pieces.scr_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and the output block holds a copy of the accumulator. -/
theorem fst_C (c : Dev nD) (t : Fin cfg0.N) (h0 : ¬t.val % 22 = 0) (h1 : t.val % 22 = 21) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.scr_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- One grid step at entry `(r, d)`: the accumulator's entry plus the contributions of the hidden units of the point's block. -/
theorem step (c : Dev nD) (t : Fin cfg0.N) (acc : Vec Ideal S512x2048 .f32) (r : Fin 512) (d : Fin 2048) :
    k0_pay2 (F := Ideal) (iblk m c 0 t) (iblk m c 1 t) (iblk m c 2 t) (iblk m c 3 t) acc (ix2 r d)
      = acc (ix2 r d) + ∑ j : Fin 256, Cert.Mlp.term (X m c) (W1 m c) (W3 m c) (W2 m c) (Cert.Mlp.rowOf (rowBlk t) r) d (t.val % 22 * 256 + j.val) := by
  refine (Body.pay2_apply (iblk m c 0 t) (iblk m c 1 t) (iblk m c 2 t) (iblk m c 3 t) acc r d).trans ?_
  refine congrArg (acc (ix2 r d) + ·) ?_
  exact Cert.Mlp.block_step (X m c) (W1 m c) (W3 m c) (W2 m c) (rowBlk t) (hidBlk t) (iblk m c 0 t) (iblk m c 1 t) (iblk m c 2 t) (iblk m c 3 t)
    (iblk0 m c t) (iblk1 m c t) (iblk2 m c t) (iblk3 m c t) r d

/-- The accumulator after grid point `n`: the partial sum over the hidden units of blocks `0 … n mod 22`. -/
theorem acc_eq (c : Dev nD) : ∀ (n : Nat) (hn : n < cfg0.N) (r : Fin 512) (d : Fin 2048),
    (outsAt0 m c n hn).2 (ix2 r d)
      = ∑ h ∈ Finset.range ((n % 22 + 1) * 256),
          Cert.Mlp.term (X m c) (W1 m c) (W3 m c) (W2 m c) (Cert.Mlp.rowOf (rowBlk ⟨n, hn⟩) r) d h := by
  intro n
  induction n with
  | zero =>
    intro hn r d
    rw [show (outsAt0 m c 0 hn).2 = _ from snd_A m c ⟨0, hn⟩ rfl (by dsimp only; omega), step, Body.pay1_apply,
      Cert.Mlp.sum_range_block]
    simp only [Nat.zero_mod, Nat.zero_mul, Finset.range_zero, Finset.sum_empty]
  | succ n ih =>
    intro hn r d
    have hN : n + 1 < 704 := by rw [← N_eq]; exact hn
    by_cases h0 : (n + 1) % 22 = 0
    · rw [show (outsAt0 m c (n + 1) hn).2 = _ from snd_A m c ⟨n + 1, hn⟩ h0 (by dsimp only; omega), step, Body.pay1_apply,
        Cert.Mlp.sum_range_block]
      simp only [h0, Nat.zero_mul, Finset.range_zero, Finset.sum_empty]
    · have e : (outsAt0 m c (n + 1) hn).2
          = k0_pay2 (iblk m c 0 ⟨n + 1, hn⟩) (iblk m c 1 ⟨n + 1, hn⟩) (iblk m c 2 ⟨n + 1, hn⟩) (iblk m c 3 ⟨n + 1, hn⟩)
              (outsAt0 m c n (Nat.lt_of_succ_lt hn)).2 := by
        by_cases h1 : (n + 1) % 22 = 21
        · exact snd_C m c ⟨n + 1, hn⟩ h0 h1
        · exact snd_B m c ⟨n + 1, hn⟩ h0 h1
      have e1 : n % 22 + 1 = (n + 1) % 22 := by omega
      have e2 : rowBlk ⟨n, Nat.lt_of_succ_lt hn⟩ = rowBlk ⟨n + 1, hn⟩ := Fin.ext (by show n / 22 = (n + 1) / 22; omega)
      rw [e, step, ih (Nat.lt_of_succ_lt hn) r d, Cert.Mlp.sum_range_block _ ((n + 1) % 22), e1, e2]

end Cert.KernelIdeal.Steps

end
-- ==== Proof.Result.lean ====
/-
  The kernel's result array.

  At the last hidden block of each row block the accumulator — by then the sum over all 5632 hidden units — is copied
  to the output block and written back to rows `(t / 22)·512 …` of the output array; these 32 write-backs tile the
  array, so after the run its entry `(R, d)` is the sum over the padded hidden axis of the contributions to `(R, d)`.
  The program then reshapes that array to the input's three axes.
-/
import proofs.«174186_j66640712564850_1_alg».proof.Proof.Gen.KernelIdeal.Frame
import proofs.«174186_j66640712564850_1_alg».proof.Proof.MlpSpec
import proofs.«174186_j66640712564850_1_alg».proof.Proof.Blocks
import proofs.«174186_j66640712564850_1_alg».proof.Proof.Steps
import Idealize.ShloMosaic.Lib.Pipeline.Value
import Idealize.ShloMosaic.Lib.StableHlo.Run
import Idealize.ShloMosaic.Lib.Tactic

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

/-- The output array: the sum over the padded hidden axis. -/
def outArr (c : Dev nD) : Buf (Elt Ideal) ((c : Thread nD τ).loc main_v35) :=
  Cert.Mlp.out (X m c) (W1 m c) (W3 m c) (W2 m c)

/-- The accumulator after grid point `n`, at any index of the block. -/
theorem acc_at (c : Dev nD) (n : Nat) (hn : n < cfg0.N) (y : S512x2048.Idx) :
    (outsAt0 m c n hn).2 y
      = ∑ h ∈ Finset.range ((n % 22 + 1) * 256),
          Cert.Mlp.term (X m c) (W1 m c) (W3 m c) (W2 m c) (Cert.Mlp.rowOf (rowBlk ⟨n, hn⟩) (y 0)) (y 1) h := by
  exact (congrArg (outsAt0 m c n hn).2 (eq_ix2 y)).trans (Steps.acc_eq m c n hn (y 0) (y 1))

/-- What a write-back writes is the block of the output array at the point's row block. -/
theorem flushed_eq (c : Dev nD) (t : Fin cfg0.N) (hf : (cfg0.win 4).flush t = true) :
    (dats m 0 c).flushed 4 t = ((cfg0.win 4).blk t).view.read (Elt Ideal) (outArr m c) := by
  have h21 : t.val % 22 = 21 := (flush0_4 t).mp hf
  have h0 : ¬t.val % 22 = 0 := by omega
  show (cfg0.win 4).cut (grid0.coords t) ((dats m 0 c).after 4 t) = _
  rw [after0_4, Steps.fst_C m c t h0 h21]
  funext y
  rw [View.read_apply]
  show (outsAt0 m c t.val t.isLt).2 y = outArr m c (((cfg0.win 4).blk t).view.emb y)
  have he : ((cfg0.win 4).blk t).view.emb y = ix2 (Cert.Mlp.rowOf (rowBlk t) (y 0)) (y 1) := by
    obtain ⟨-, -, -, -, -, -, -, -, e0, e1⟩ := idx_facts t
    funext a; apply Fin.ext
    match a with
    | ⟨0, _⟩ => show win0_4.index t (0 : Fin 2) * 512 + 1 * (y 0).val = t.val / 22 * 512 + (y 0).val; rw [e0]; omega
    | ⟨1, _⟩ => show win0_4.index t (1 : Fin 2) * 2048 + 1 * (y 1).val = (y 1).val; rw [e1]; omega
  rw [he, acc_at m c t.val t.isLt y, h21]
  rfl

/-- Every index of the output array is in the block written back at the last hidden block of its row block. -/
theorem cover (c : Dev nD) (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hlt : (i 0).val / 512 * 22 + 21 < cfg0.N := by rw [N_eq]; omega
  refine ⟨⟨(i 0).val / 512 * 22 + 21, hlt⟩, (flush0_4 _).mpr (by show ((i 0).val / 512 * 22 + 21) % 22 = 21; omega), ?_⟩
  show i ∈ ((View.whole main_v35).slice (win0_4.rect ⟨(i 0).val / 512 * 22 + 21, hlt⟩)).set
  rw [View.set_slice_whole, Rect.mem_set_unit]
  obtain ⟨-, -, -, -, -, -, -, -, e0, e1⟩ := idx_facts ⟨(i 0).val / 512 * 22 + 21, hlt⟩
  intro a
  match a with
  | ⟨0, _⟩ =>
    show win0_4.index ⟨(i 0).val / 512 * 22 + 21, hlt⟩ (0 : Fin 2) * 512 ≤ (i 0).val
      ∧ (i 0).val < win0_4.index ⟨(i 0).val / 512 * 22 + 21, hlt⟩ (0 : Fin 2) * 512 + 512
    rw [e0]
    show ((i 0).val / 512 * 22 + 21) / 22 * 512 ≤ (i 0).val ∧ (i 0).val < ((i 0).val / 512 * 22 + 21) / 22 * 512 + 512
    omega
  | ⟨1, _⟩ =>
    show win0_4.index ⟨(i 0).val / 512 * 22 + 21, hlt⟩ (1 : Fin 2) * 2048 ≤ (i 1).val
      ∧ (i 1).val < win0_4.index ⟨(i 0).val / 512 * 22 + 21, hlt⟩ (1 : Fin 2) * 2048 + 2048
    rw [e1]
    omega

/-- The output array after the run. -/
theorem final (c : Dev nD) : (dats m 0 c).arrAt 4 cfg0.N = outArr m c :=
  (dats m 0 c).arrAt_eq_of_cover 4 (outArr m c) (flushed_eq m c) (cover c)

/-- The program's result: the output array reshaped to the input's three axes. -/
def result (c : Dev nD) : Buf (Elt Ideal) ((c : Thread nD τ).loc main_v36) :=
  shapeCast S4x4096x2048 (outArr m c) shapeCasts_S16384x2048_S4x4096x2048

theorem tail_eq (c : Dev nD) :
    Pipeline.afterTail₀ cfgs (dats m) 0 (V0 m) [hostOps1] c main_v36 = result m c := by
  unfold Pipeline.afterTail₀
  show StableHlo.after hostOps1 _ (Proc.devRef .tc main_v36) = _
  after_results
  funext i
  show shapeCast S4x4096x2048 (Pipeline.withArrays spec0 c (V0 m c) (fun w => (dats m 0 c).arrAt w cfg0.N)
    (Proc.devRef .tc (Pipeline.arrRef spec0 4))) shapeCasts_S16384x2048_S4x4096x2048 i = _
  rw [Pipeline.withArrays_arr spec0 launch0.win.arr_inj c (V0 m c) (fun w => (dats m 0 c).arrAt w cfg0.N) 4, final]
  rfl

/-- The run, read: every weakly fair execution of the program terminates with the result array at the reshaped sum and
    the four arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.HostPrefix.lean ====
/-
  The four operand arrays as the kernel finds them, as functions of the program's arguments.

  Before the kernel is launched the program quantizes each weight matrix — with `s` the mean of the absolute values of
  the matrix, each entry `w` becomes `clip(round(w / s), −1, 1) · s` —, pads the hidden axis of the quantized matrix
  with zeros from 5461 to 5632, and flattens the input's two leading axes into one axis of 16384 rows; every array is
  then converted to a narrower number format, which changes nothing over the extended reals.
-/
import proofs.«174186_j66640712564850_1_alg».proof.Proof.Gen.KernelIdeal.Frame
import proofs.«174186_j66640712564850_1_alg».proof.Proof.LibTypedRef
import Idealize.ShloMosaic.Lib.StableHlo.Run
import Idealize.ShloMosaic.Lib.Tactic

noncomputable section

namespace Cert.KernelIdeal.HostPre

open Cert.KernelIdeal Cert.KernelIdeal.Gen Idealize.ShloMosaic Idealize.ShloMosaic.TcCoe Idealize.SL.Sem Idealize.ShloMosaic.StableHlo

variable {F : FTy → Type} [FloatOps F]

/-- The mean of the absolute values of a 5461 × 2048 matrix, as the program computes it. -/
def scaleA (x : FVec F S5461x2048 .f32) : FVec F S_ .f32 :=
  Host.divf (Host.reduceAdd (Host.absf x) (constant S_ .f32 0x00000000#32) reducesTo_S5461x2048_S_d0_1 h_S_) (constant S_ .f32 0x4B2AA800#32)

/-- The quantized 5461 × 2048 matrix: `clip(round(w / s), −1, 1) · s`. -/
def quantA (x : FVec F S5461x2048 .f32) : FVec F S5461x2048 .f32 :=
  mulf (minimumf (broadcastInDim S5461x2048 ![] bcast_S_S5461x2048 (constant S_ .f32 0x3F800000#32))
      (maximumf (broadcastInDim S5461x2048 ![] bcast_S_S5461x2048 (constant S_ .f32 0xBF800000#32))
        (Host.roundeven (Host.divf x (broadcastInDim S5461x2048 ![] bcast_S_S5461x2048 (scaleA x))))))
    (broadcastInDim S5461x2048 ![] bcast_S_S5461x2048 (scaleA x))

/-- The same for a 2048 × 5461 matrix. -/
def scaleB (x : FVec F S2048x5461 .f32) : FVec F S_ .f32 :=
  Host.divf (Host.reduceAdd (Host.absf x) (constant S_ .f32 0x00000000#32) reducesTo_S2048x5461_S_d0_1 h_S_) (constant S_ .f32 0x4B2AA800#32)

def quantB (x : FVec F S2048x5461 .f32) : FVec F S2048x5461 .f32 :=
  mulf (minimumf (broadcastInDim S2048x5461 ![] bcast_S_S2048x5461 (constant S_ .f32 0x3F800000#32))
      (maximumf (broadcastInDim S2048x5461 ![] bcast_S_S2048x5461 (constant S_ .f32 0xBF800000#32))
        (Host.roundeven (Host.divf x (broadcastInDim S2048x5461 ![] bcast_S_S2048x5461 (scaleB x))))))
    (broadcastInDim S2048x5461 ![] bcast_S_S2048x5461 (scaleB x))

/-- Zero rows appended: 5461 × 2048 to 5632 × 2048. -/
def padA (w : FVec F S5461x2048 .f32) : FVec F S5632x2048 .f32 :=
  pad S5632x2048 ![0, 0] ![171, 0] ![0, 0] w (sitofp (F := F) .f32 (constantI S_ 32 0#32)) pads_S5461x2048_S5632x2048_01710_000 h_S_

/-- Zero columns appended: 2048 × 5461 to 2048 × 5632. -/
def padB (w : FVec F S2048x5461 .f32) : FVec F S2048x5632 .f32 :=
  pad S2048x5632 ![0, 0] ![0, 171] ![0, 0] w (sitofp (F := F) .f32 (constantI S_ 32 0#32)) pads_S2048x5461_S2048x5632_000_01710 h_S_

variable (m : (ℓ : Loc nD τ sig) → Buf (Elt F) ℓ)

set_option maxRecDepth 8192 in
set_option maxHeartbeats 4000000 in
/-- The input rows: the first argument with its two leading axes flattened. -/
theorem V_rows (c : Dev nD) : (V m c main_v34 : S16384x2048.Idx → Elt F .bf16)
    = truncf .bf16 (shapeCast S16384x2048 (m ((c : Thread nD τ).loc main_arg0)) shapeCasts_S4x4096x2048_S16384x2048) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  simp only [Cert.Lib.TypedRef.ofBuf_toBuf]
  rfl

set_option maxRecDepth 8192 in
set_option maxHeartbeats 4000000 in
/-- The first weight matrix: the second argument quantized and padded. -/
theorem V_w1 (c : Dev nD) : (V m c main_v28 : S5632x2048.Idx → Elt F .bf16)
    = truncf .bf16 (padA (quantA (m ((c : Thread nD τ).loc main_arg1)))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  simp only [Cert.Lib.TypedRef.ofBuf_toBuf]
  rfl

set_option maxRecDepth 8192 in
set_option maxHeartbeats 4000000 in
/-- The second weight matrix: the third argument quantized and padded. -/
theorem V_w3 (c : Dev nD) : (V m c main_v30 : S5632x2048.Idx → Elt F .bf16)
    = truncf .bf16 (padA (quantA (m ((c : Thread nD τ).loc main_arg2)))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  simp only [Cert.Lib.TypedRef.ofBuf_toBuf]
  rfl

set_option maxRecDepth 8192 in
set_option maxHeartbeats 4000000 in
/-- The third weight matrix: the fourth argument quantized and padded. -/
theorem V_w2 (c : Dev nD) : (V m c main_v32 : S2048x5632.Idx → Elt F .bf16)
    = truncf .bf16 (padB (quantB (m ((c : Thread nD τ).loc main_arg3)))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  simp only [Cert.Lib.TypedRef.ofBuf_toBuf]
  rfl

end Cert.KernelIdeal.HostPre

end
-- ==== Proof.Arrays.lean ====
/-
  The four operand arrays, and the reshaped result, read at an index.

  Row `b·4096 + s` of the input rows is row `(b, s)` of the first argument; row `h < 5461` of a padded weight matrix is
  row `h` of the quantized matrix (and likewise for columns of the third), and every hidden column from 5461 on of the
  third padded matrix is zero; entry `(b, s, d)` of the reshaped result is entry `(b·4096 + s, d)` of the kernel's output.
-/
import proofs.«174186_j66640712564850_1_alg».proof.Proof.HostPrefix
import proofs.«174186_j66640712564850_1_alg».proof.Proof.Blocks
import Idealize.ShloMosaic.Lib.KernelVsHost
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- Row `(b, s)` of the input in the flattened numbering. -/
def flat (b : Fin 4) (s : Fin 4096) : Fin 16384 := ⟨b.val * 4096 + s.val, by have := b.isLt; have := s.isLt; omega⟩

/-- Hidden unit `h < 5461` as an index of the padded hidden axis. -/
def inH (h : Fin 5461) : Fin 5632 := ⟨h.val, by have := h.isLt; omega⟩

theorem hid_inH (h : Fin 5461) : Cert.Mlp.hid h.val = inH h := Cert.Mlp.hid_of_lt _ (by have := h.isLt; omega)

/-- The input rows are the first argument's rows. -/
theorem X_apply (c : Dev nD) (b : Fin 4) (s : Fin 4096) (k : Fin 2048) :
    X m c (ix2 (flat b s) k) = m ((c : Thread nD τ).loc main_arg0) (ix3 b s k) := by
  unfold X
  rw [HostPre.V_rows]
  show shapeCast S16384x2048 (m ((c : Thread nD τ).loc main_arg0)) shapeCasts_S4x4096x2048_S16384x2048 (ix2 (flat b s) k) = _
  refine shapeCast_apply _ _ _ (ix3 b s k) ?_
  rw [Shape.rowMajor_val_three, Shape.rowMajor_val_two]
  rfl

/-- A row below 5461 of the first padded weight matrix is the quantized matrix's row. -/
theorem W1_apply (c : Dev nD) (h : Fin 5461) (k : Fin 2048) :
    W1 m c (ix2 (inH h) k) = HostPre.quantA (F := Ideal) (m ((c : Thread nD τ).loc main_arg1)) (ix2 h k) := by
  unfold W1
  rw [HostPre.V_w1]
  show HostPre.padA (F := Ideal) (HostPre.quantA (F := Ideal) (m ((c : Thread nD τ).loc main_arg1))) (ix2 (inH h) k) = _
  unfold HostPre.padA
  refine pad_apply_of_inside _ _ _ _ _ _ _ (ix2 (inH h) k) (ix2 h k) fun a => ?_
  match a with
  | ⟨0, _⟩ => show h.val = 0 + h.val * (0 + 1); omega
  | ⟨1, _⟩ => show k.val = 0 + k.val * (0 + 1); omega

/-- The same for the second. -/
theorem W3_apply (c : Dev nD) (h : Fin 5461) (k : Fin 2048) :
    W3 m c (ix2 (inH h) k) = HostPre.quantA (F := Ideal) (m ((c : Thread nD τ).loc main_arg2)) (ix2 h k) := by
  unfold W3
  rw [HostPre.V_w3]
  show HostPre.padA (F := Ideal) (HostPre.quantA (F := Ideal) (m ((c : Thread nD τ).loc main_arg2))) (ix2 (inH h) k) = _
  unfold HostPre.padA
  refine pad_apply_of_inside _ _ _ _ _ _ _ (ix2 (inH h) k) (ix2 h k) fun a => ?_
  match a with
  | ⟨0, _⟩ => show h.val = 0 + h.val * (0 + 1); omega
  | ⟨1, _⟩ => show k.val = 0 + k.val * (0 + 1); omega

/-- A column below 5461 of the third padded weight matrix is the quantized matrix's column, -/
theorem W2_apply (c : Dev nD) (d : Fin 2048) (h : Fin 5461) :
    W2 m c (ix2 d (inH h)) = HostPre.quantB (F := Ideal) (m ((c : Thread nD τ).loc main_arg3)) (ix2 d h) := by
  unfold W2
  rw [HostPre.V_w2]
  show HostPre.padB (F := Ideal) (HostPre.quantB (F := Ideal) (m ((c : Thread nD τ).loc main_arg3))) (ix2 d (inH h)) = _
  unfold HostPre.padB
  refine pad_apply_of_inside _ _ _ _ _ _ _ (ix2 d (inH h)) (ix2 d h) fun a => ?_
  match a with
  | ⟨0, _⟩ => show d.val = 0 + d.val * (0 + 1); omega
  | ⟨1, _⟩ => show h.val = 0 + h.val * (0 + 1); omega

/-- and a column from 5461 on is zero. -/
theorem W2_pad (c : Dev nD) (d : Fin 2048) (h : Fin 5632) (hh : 5461 ≤ h.val) : W2 m c (ix2 d h) = 0 := by
  unfold W2
  rw [HostPre.V_w2]
  show HostPre.padB (F := Ideal) (HostPre.quantB (F := Ideal) (m ((c : Thread nD τ).loc main_arg3))) (ix2 d h) = _
  unfold HostPre.padB
  refine (pad_apply_of_not_inside _ _ _ _ _ _ _ (ix2 d h) (1 : Fin 2) ?_).trans ?_
  · show ¬(0 ≤ h.val ∧ (h.val - 0) % (0 + 1) = 0 ∧ (h.val - 0) / (0 + 1) < 5461)
    omega
  · show (((0#32 : BitVec 32).toInt : ℝ) : EReal) = 0
    simp

/-- The reshaped result at `(b, s, d)` is the kernel's output at `(b·4096 + s, d)`. -/
theorem reshape_apply (G : S16384x2048.Idx → EReal) (b : Fin 4) (s : Fin 4096) (d : Fin 2048) :
    shapeCast S4x4096x2048 G shapeCasts_S16384x2048_S4x4096x2048 (ix3 b s d) = G (ix2 (flat b s) d) := by
  refine shapeCast_apply _ _ _ (ix2 (flat b s) d) ?_
  rw [Shape.rowMajor_val_three, Shape.rowMajor_val_two]
  rfl

end Cert.KernelIdeal.Arrays

end
-- ==== Proof.Bridge.lean ====
/-
  The reference computes the same function.

  The reference quantizes each weight matrix to `q` exactly as the program around the kernel does, but uses
  `w + (q − w)` in its place; for a real number `w` that is `q`, so under the precondition the reference's weights are
  the quantized matrices.  Its activation is `a · (1 / (1 + e^{−a}))`, which is `a · σ(a)`.  Entry `(b, s, d)` of its result is
  therefore the sum over the 5461 hidden units `h` of `((a·σ(a))·b')·q₂ d h` with the pre-activations taken along row
  `(b, s)` of the input — which is the kernel's sum over the padded hidden axis, whose extra 171 hidden units contribute
  zero because their columns of the third weight matrix are zero.
-/
import proofs.«174186_j66640712564850_1_alg».proof.Proof.Gen.ReferenceIdeal.Read
import proofs.«174186_j66640712564850_1_alg».proof.Proof.MlpSpec
import proofs.«174186_j66640712564850_1_alg».proof.Proof.HostPrefix
import proofs.«174186_j66640712564850_1_alg».proof.Proof.Blocks
import proofs.«174186_j66640712564850_1_alg».proof.Proof.Arrays
import proofs.«174186_j66640712564850_1_alg».proof.Proof.Result
import Idealize.ShloMosaic.Lib.IdealHost

noncomputable section

open scoped BigOperators

namespace Cert.Bridge

open Idealize.ShloMosaic Idealize.ShloMosaic.TcCoe Idealize.SL.Sem Idealize.ShloMosaic.ValueIdx
open Cert.ReferenceIdeal.Read Cert.KernelIdeal.Arrays

abbrev A0 := (⟨3, ![4, 4096, 2048]⟩ : Shape).Idx → EReal
abbrev AW := (⟨2, ![5461, 2048]⟩ : Shape).Idx → EReal
abbrev AV := (⟨2, ![2048, 5461]⟩ : Shape).Idx → EReal

/-- Every entry a real number. -/
def Real' {S : Shape} (x : S.Idx → EReal) : Prop := ∀ i, x i ≠ ⊥ ∧ x i ≠ ⊤

/-- The reference's first weight matrix is the quantized matrix. -/
theorem wq1 (x1 : AW) (h : Real' x1) : val_main_v10 (F := Ideal) x1 = Cert.KernelIdeal.HostPre.quantA (F := Ideal) x1 := by
  funext j
  rw [val_main_v10_apply, val_main_v9_apply]
  show x1 j + (val_main_v8 (F := Ideal) x1 j - x1 j) = _
  rw [Cert.Mlp.add_sub_cancel_real _ _ (h j).1 (h j).2]
  rfl

/-- The second. -/
theorem wq3 (x2 : AW) (h : Real' x2) : val_main_v21 (F := Ideal) x2 = Cert.KernelIdeal.HostPre.quantA (F := Ideal) x2 := by
  funext j
  rw [val_main_v21_apply, val_main_v20_apply]
  show x2 j + (val_main_v19 (F := Ideal) x2 j - x2 j) = _
  rw [Cert.Mlp.add_sub_cancel_real _ _ (h j).1 (h j).2]
  rfl

/-- The third. -/
theorem wq2 (x3 : AV) (h : Real' x3) : val_main_v32 (F := Ideal) x3 = Cert.KernelIdeal.HostPre.quantB (F := Ideal) x3 := by
  funext j
  rw [val_main_v32_apply, val_main_v31_apply]
  show x3 j + (val_main_v30 (F := Ideal) x3 j - x3 j) = _
  rw [Cert.Mlp.add_sub_cancel_real _ _ (h j).1 (h j).2]
  rfl

/-- The reference's first pre-activation of hidden unit `h` along input row `(b, s)`. -/
theorem pre1 (x0 : A0) (x1 : AW) (b : Fin 4) (s : Fin 4096) (h : Fin 5461) :
    val_main_v33 (F := Ideal) x0 x1 (ix3 b s h) = ∑ k : Fin 2048, x0 (ix3 b s k) * val_main_v10 (F := Ideal) x1 (ix2 h k) := by
  rw [val_main_v33_apply]
  refine Finset.sum_congr rfl fun k _ => ?_
  have el : lidx_main_v33 (ix3 b s h) k = ix3 b s k := funext fun a => Fin.ext (by
    match a with
    | ⟨0, _⟩ => rfl
    | ⟨1, _⟩ => rfl
    | ⟨2, _⟩ => rfl)
  have er : ridx_main_v33 (ix3 b s h) k = ix2 h k := funext fun a => Fin.ext (by
    match a with
    | ⟨0, _⟩ => rfl
    | ⟨1, _⟩ => rfl)
  rw [el, er]

/-- The second. -/
theorem pre3 (x0 : A0) (x2 : AW) (b : Fin 4) (s : Fin 4096) (h : Fin 5461) :
    val_main_v34 (F := Ideal) x0 x2 (ix3 b s h) = ∑ k : Fin 2048, x0 (ix3 b s k) * val_main_v21 (F := Ideal) x2 (ix2 h k) := by
  rw [val_main_v34_apply]
  refine Finset.sum_congr rfl fun k _ => ?_
  have el : lidx_main_v34 (ix3 b s h) k = ix3 b s k := funext fun a => Fin.ext (by
    match a with
    | ⟨0, _⟩ => rfl
    | ⟨1, _⟩ => rfl
    | ⟨2, _⟩ => rfl)
  have er : ridx_main_v34 (ix3 b s h) k = ix2 h k := funext fun a => Fin.ext (by
    match a with
    | ⟨0, _⟩ => rfl
    | ⟨1, _⟩ => rfl)
  rw [el, er]

/-- The reference's activation: `a · (1 / (1 + e^{−a}))` is `a · σ(a)`. -/
theorem silu (x0 : A0) (x1 : AW) (i : (⟨3, ![4, 4096, 5461]⟩ : Shape).Idx) :
    val_main_v35 (F := Ideal) x0 x1 i = val_main_v33 (F := Ideal) x0 x1 i * Ideal.logistic (val_main_v33 (F := Ideal) x0 x1 i) := by
  rw [val_main_v35_apply, val_main_call6_v5_apply, val_main_call6_v4_apply, val_main_call6_cst_0_apply, val_main_call6_v3_apply,
    val_main_call6_v2_apply, val_main_call6_cst_apply, val_main_call6_v1_apply, val_main_call6_v0_apply]
  show val_main_v33 (F := Ideal) x0 x1 i * Ideal.div (Ideal.ofBits .f32 0x3F800000#32)
      (Ideal.ofBits .f32 0x3F800000#32 + Ideal.exp (-(val_main_v33 (F := Ideal) x0 x1 i))) = _
  rw [Ideal.ofBits_one_f32]
  rfl

variable (m : (ℓ : Loc Cert.KernelIdeal.nD Cert.KernelIdeal.τ Cert.KernelIdeal.sig) → Buf (Elt Ideal) ℓ)

/-- Under the precondition the reference's result, of the kernel program's arguments, is the kernel program's result. -/
theorem ref_eq (c : Dev Cert.KernelIdeal.nD)
    (h1 : Real' (S := ⟨2, ![5461, 2048]⟩) (m ((c : Thread Cert.KernelIdeal.nD Cert.KernelIdeal.τ).loc Cert.KernelIdeal.main_arg1)))
    (h2 : Real' (S := ⟨2, ![5461, 2048]⟩) (m ((c : Thread Cert.KernelIdeal.nD Cert.KernelIdeal.τ).loc Cert.KernelIdeal.main_arg2)))
    (h3 : Real' (S := ⟨2, ![2048, 5461]⟩) (m ((c : Thread Cert.KernelIdeal.nD Cert.KernelIdeal.τ).loc Cert.KernelIdeal.main_arg3))) :
    val_main_v37 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.KernelIdeal.Result.result m c := by
  funext i
  obtain ⟨b, s, d, rfl⟩ : ∃ (b : Fin 4) (s : Fin 4096) (d : Fin 2048), i = ix3 b s d := ⟨i 0, i 1, i 2, eq_ix3 i⟩
  rw [val_main_v37_apply]
  unfold Cert.KernelIdeal.Result.result
  rw [Cert.KernelIdeal.Arrays.reshape_apply]
  unfold Cert.KernelIdeal.Result.outArr
  show _ = ∑ h ∈ Finset.range 5632, Cert.Mlp.term (Cert.KernelIdeal.Blocks.X m c) (Cert.KernelIdeal.Blocks.W1 m c)
    (Cert.KernelIdeal.Blocks.W3 m c) (Cert.KernelIdeal.Blocks.W2 m c) (flat b s) d h
  rw [Cert.Mlp.sum_range_pad _ (fun j hj => Cert.Mlp.term_pad _ _ _ _ _ _ _
    (W2_pad m c d _ (by rw [Cert.Mlp.hid_of_lt _ (by omega)]; show 5461 ≤ 5461 + j; omega)))]
  refine Finset.sum_congr rfl fun k _ => ?_
  have el : lidx_main_v37 (ix3 b s d) k = ix3 b s k := funext fun a => Fin.ext (by
    match a with
    | ⟨0, _⟩ => rfl
    | ⟨1, _⟩ => rfl
    | ⟨2, _⟩ => rfl)
  have er : ridx_main_v37 (ix3 b s d) k = ix2 d k := funext fun a => Fin.ext (by
    match a with
    | ⟨0, _⟩ => rfl
    | ⟨1, _⟩ => rfl)
  rw [el, er, val_main_v36_apply, silu, pre1, pre3, wq1 _ h1, wq3 _ h2, wq2 _ h3]
  unfold Cert.Mlp.term Cert.Mlp.hiddenAct
  rw [hid_inH k, W2_apply]
  simp only [X_apply, W1_apply, W3_apply]
  rfl

end Cert.Bridge

end
-- ==== Proof.lean ====
/-
  A gated feed-forward block with quantized weights: a blocked kernel against one dense reference.

  Both programs first replace each of the three weight matrices `w` by its quantization `q`: with `s` the mean of
  the absolute values of `w`, `q = clip(round(w / s), −1, 1) · s`.  For each of the 16384 input rows `x` (the input's
  two leading axes flattened) and each of the 5461 hidden units `h` they form `a = ⟨x, q₁ h⟩`, `b = ⟨x, q₃ h⟩` and the
  hidden activation `(a · σ(a)) · b` with `σ` the logistic function, and output entry `d` of the row is the sum over `h`
  of `activation · q₂ d h`.

  The kernel pads the hidden axis with zeros to 5632 = 22 · 256 and walks a 32 × 22 grid: for each block of 512 rows
  it adds, hidden block by hidden block, the product of the block's hidden activations with the matching 256 columns of `q₂` into
  an accumulator that it resets at the first hidden block and copies out at the last.  Over the extended reals a
  change of number format is the identity, each matrix product into a zero accumulator is a plain sum, and finite sums
  may be regrouped freely, so the kernel's output is the sum over all 5632 hidden units; the 171 padded ones contribute
  a product with a zero entry of the padded `q₂`, which is zero.

  The reference uses `w + (q − w)` for each weight; this equals `q` because every weight is a real number, which is
  what the precondition provides, and it spells the logistic function as `1 / (1 + e^{−a})`, which is the same
  function.  Hence the two results agree entry by entry.  The idealized kernel is the kernel's own text, so there is
  nothing to preserve beyond that.
-/
import proofs.«174186_j66640712564850_1_alg».proof.Defs
import proofs.«174186_j66640712564850_1_alg».proof.Proof.Gen.Kernel
import proofs.«174186_j66640712564850_1_alg».proof.Proof.Gen.Kernel.Frame
import proofs.«174186_j66640712564850_1_alg».proof.Proof.Gen.KernelIdeal
import proofs.«174186_j66640712564850_1_alg».proof.Proof.Gen.KernelIdeal.Frame
import proofs.«174186_j66640712564850_1_alg».proof.Proof.Gen.ReferenceIdeal
import proofs.«174186_j66640712564850_1_alg».proof.Proof.Gen.ReferenceIdeal.Run
import proofs.«174186_j66640712564850_1_alg».proof.Proof.Gen.ReferenceIdeal.Read
import proofs.«174186_j66640712564850_1_alg».proof.Proof.Gen.Pre_finite_inputs
import proofs.«174186_j66640712564850_1_alg».proof.Proof.Finite
import proofs.«174186_j66640712564850_1_alg».proof.Proof.Result
import proofs.«174186_j66640712564850_1_alg».proof.Proof.Bridge
import Idealize.ShloMosaic.Adequacy
import Idealize.ShloMosaic.Init

noncomputable section

namespace Cert.Proof

open Idealize.ShloMosaic Idealize.SL.Sem

/-- The kernel program runs and leaves its arguments unchanged, at the word level and over the extended reals. -/
theorem frame_k : Cert.frame_Kernel := fun m ρ _ => Cert.Kernel.Gen.frame m ρ
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, under the precondition, both programs end with the same result: the
    kernel program's run ends at the reshaped sum over the padded hidden axis, the reference's run at its own term,
    which for real-valued weights is that same array. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2]
  obtain ⟨h1, h2, h3⟩ := Cert.Pre_finite_inputs.Decode.weights_real _ _ _ _ (hpre c)
  exact Cert.Bridge.ref_eq m c h1 h2 h3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
